-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .hbm, ⟨7, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one run of the kernel body leaves behind, as pure functions of what it was given.

  The body keeps a [1024, 1024] accumulator in scratch memory. At a grid point with k = 0 it stores the zero
  block, reads it back and stores (zero + x_blk * w_blk): the scratch ends at the accumulate payload of the
  reset payload. At a point with k = 1 it reads the scratch left by the point before (acc), stores
  (acc + x_blk * w_blk), reads that back, and stores (that + bias row) into the first output block and the
  sign selection of it into the second.

  Each lemma reads the stores the run made back as one whole-block value: every store covers its whole
  [1024, 1024] buffer from offset (0, 0), so the last store's payload is the content, and a load of a
  buffer just stored whole is that payload.
-/
import proofs.«144921_j37752762532729_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A point with k = 0 leaves in the scratch: the accumulate payload over the reset payload (the zero block). -/
theorem scratch_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x2048 .bf16) (x1 : Vec F S2048x1024 .bf16) (x2 : Vec F S1x1024 .f32) :
    sout0_A_0 c i arg3 harg3 arg4 harg4 arg5 harg5 arg6 harg6 arg7 harg7 arg8 harg8 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg8.read_unread,
    View.ld_unit_zero (S := S1024x2048) hz, View.ld_unit_zero (S := S2048x1024) hz, View.ld_unit_zero (S := S1024x1024) hz,
    View.ld_unit_zero (S := S1x1024) hz]

/-- A point with k = 1 leaves in the scratch: the accumulate payload over what the point before left (xs0). -/
theorem scratch_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    sout0_B_0 c i arg3 harg3 arg4 harg4 arg5 harg5 arg6 harg6 arg7 harg7 arg8 harg8 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 arg8 harg8 hc0 hc1 x0 x1 x2 xs0)]
  unfold kernelRun0_B
  dsimp only
  sl_unfold_words
  rw [View.canon_unit_zero hz]
  simp only [View.readAt_eq_ld, harg3.read_unread, harg4.read_unread, harg5.read_unread, harg8.read_unread,
    View.ld_unit_zero (S := S1024x2048) hz, View.ld_unit_zero (S := S2048x1024) hz, View.ld_unit_zero (S := S1024x1024) hz,
    View.ld_unit_zero (S := S1x1024) hz]

/-- A point with k = 1 leaves in the first output block: the finished accumulator plus the bias row. -/
theorem out3_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    out0_B_3 c i arg3 harg3 arg4 harg4 arg5 harg5 arg6 harg6 arg7 harg7 arg8 harg8 hc0 hc1 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 arg8 harg8 hc0 hc1 x0 x1 x2 xs0)]
  unfold kernelRun0_B
  dsimp only
  sl_unfold_words
  rw [View.canon_unit_zero hz, View.readCov_unit_zero (S := S1024x1024) _ hz]
  simp only [View.readAt_eq_ld, harg3.read_unread, harg4.read_unread, harg5.read_unread, harg8.read_unread,
    View.ld_unit_zero (S := S1024x2048) hz, View.ld_unit_zero (S := S2048x1024) hz, View.ld_unit_zero (S := S1024x1024) hz,
    View.ld_unit_zero (S := S1x1024) hz]

/-- A point with k = 1 leaves in the second output block: the sign selection of the same sum. -/
theorem out4_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    out0_B_4 c i arg3 harg3 arg4 harg4 arg5 harg5 arg6 harg6 arg7 harg7 arg8 harg8 hc0 hc1 x0 x1 x2 xs0 = k0_pay4 (k0_pay2 xs0 x0 x1) x2 := by
  unfold out0_B_4
  rw [View.read_writes_eq_canon _ _ _ (cover0_B_4 c i arg3 harg3 arg4 harg4 arg5 harg5 arg6 harg6 arg7 harg7 arg8 harg8 hc0 hc1 x0 x1 x2 xs0)]
  unfold kernelRun0_B
  dsimp only
  sl_unfold_words
  rw [View.canon_unit_zero hz, View.readCov_unit_zero (S := S1024x1024) _ hz]
  simp only [View.readAt_eq_ld, harg3.read_unread, harg4.read_unread, harg5.read_unread, harg8.read_unread,
    View.ld_unit_zero (S := S1024x2048) hz, View.ld_unit_zero (S := S2048x1024) hz, View.ld_unit_zero (S := S1024x1024) hz,
    View.ld_unit_zero (S := S1x1024) hz]

end Cert.KernelIdeal.Pieces

end
-- ==== Proof.LibMatmulPlain.lean ====
/-
  A plain matrix product read at one entry, on the extended reals.

  For dimension numbers that contract the left operand's second axis with the right operand's first
  (an [M, K] array times a [K, N] array), started from a zero accumulator, entry (p, c) of the product is
  the sum over k of lhs (p, k) * rhs (k, c). The four coordinate facts about the record's operand indices
  are taken as hypotheses, so the lemma serves every record of that form whatever the extents.
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

/-- Entry (p, c) of an [M, K] x [K, N] product into a zero accumulator is the sum over the one contracted
    axis of the products of row p of the left operand with column c of the right one. `hr`, `hs`: the record
    contracts one axis, of extent K; `hl0` ... `hr1`: the record's operand indices at an output index and a
    contraction position are (row, position) and (position, column). -/
theorem matmul_zero_apply {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j 1).val)
    (lhs : FVec Ideal ⟨2, ![M, K]⟩ φ₁) (rhs : FVec Ideal ⟨2, ![K, N]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Idealize.ShloMosaic.MatmulPlain

end
-- ==== Proof.SplitSum.lean ====
/-
  A sum over 4096 consecutive indices is the sum over the first 2048 plus the sum over the last 2048.
  Stated in any additive commutative monoid, so it holds on the extended reals with no finiteness
  assumption: only associativity and commutativity of addition are used.
-/
import Mathlib.Algebra.BigOperators.Fin

namespace Cert.SplitSum

/-- The low half of the contraction range: index `k < 2048` as an index below 4096. -/
def lo (k : Fin 2048) : Fin 4096 := ⟨k.val, by omega⟩

/-- The high half of the contraction range: index `k < 2048` shifted to `2048 + k`. -/
def hi (k : Fin 2048) : Fin 4096 := ⟨2048 + k.val, by omega⟩

@[simp] theorem lo_val (k : Fin 2048) : (lo k).val = k.val := rfl
@[simp] theorem hi_val (k : Fin 2048) : (hi k).val = 2048 + k.val := rfl

/-- Splitting the whole contraction into its two halves. -/
theorem sum_halves {M : Type*} [AddCommMonoid M] (f : Fin 4096 → M) :
    ∑ k : Fin 4096, f k = ∑ k : Fin 2048, f (lo k) + ∑ k : Fin 2048, f (hi k) := by
  exact Fin.sum_univ_add (a := 2048) (b := 2048) (f := f)

end Cert.SplitSum
-- ==== Proof.Spec.lean ====
/-
  The function both programs compute, entry by entry, on the extended reals.

  For x of shape [8192, 4096], w of shape [4096, 4096] and b of shape [4096]:
    pre (p, q)  =  (sum over k < 4096 of x (p, k) * w (k, q))  +  b q
    act (p, q)  =  1 if pre (p, q) >= 0, else -1
  where 0, 1 and -1 are the values the three f32 words 0x00000000, 0x3F800000, 0xBF800000 denote.

  The tiled program contracts in two halves of 2048 and starts its accumulator from the zero word:
  ((0 + sum over the low half) + sum over the high half) + b q. Addition on the extended reals is
  commutative and associative and the zero word denotes 0, so that is pre (p, q) with no assumption on
  the entries (they may be infinite).
-/
import Idealize.ShloMosaic.PureOps.Ideal.Laws
import Idealize.ShloMosaic.Lib.ValueIdx
import proofs.«144921_j37752762532729_1_alg».proof.Proof.SplitSum

noncomputable section

open scoped BigOperators

namespace Cert.Spec

open Idealize.ShloMosaic Idealize.ShloMosaic.ValueIdx Cert.SplitSum

/-- The shapes of the three arguments (and of both results, which have x's shape). -/
abbrev SX : Shape := ⟨2, ![8192, 4096]⟩
abbrev SW : Shape := ⟨2, ![4096, 4096]⟩
abbrev SB : Shape := ⟨1, ![4096]⟩

/-- Entry (p, q) of the pre-activation: row p of x against column q of w, plus the bias at q. -/
def preAt (x : SX.Idx → EReal) (w : SW.Idx → EReal) (b : SB.Idx → EReal) (p : Fin 8192) (q : Fin 4096) : EReal :=
  (∑ k : Fin 4096, x (ix2 p k) * w (ix2 k q)) + b (ix1 q)

/-- The binarized activation of one extended real: the word for 1 where it is at least the zero word's
    value, the word for -1 elsewhere. -/
def signAt (z : EReal) : EReal :=
  Scalar.select (FloatOps.cmpf (F := Ideal) (φ := .f32) .oge z (Ideal.ofBits .f32 0x00000000#32))
    (Ideal.ofBits .f32 0x3F800000#32) (Ideal.ofBits .f32 0xBF800000#32)

/-- The pre-activation array. -/
def pre (x : SX.Idx → EReal) (w : SW.Idx → EReal) (b : SB.Idx → EReal) : SX.Idx → EReal :=
  fun i => preAt x w b (i 0) (i 1)

/-- The activation array. -/
def act (x : SX.Idx → EReal) (w : SW.Idx → EReal) (b : SB.Idx → EReal) : SX.Idx → EReal :=
  fun i => signAt (preAt x w b (i 0) (i 1))

/-- The two-halves accumulation from the zero word, then the bias, is the pre-activation. -/
theorem halves_eq_preAt (x : SX.Idx → EReal) (w : SW.Idx → EReal) (b : SB.Idx → EReal) (p : Fin 8192) (q : Fin 4096) :
    ((Ideal.ofBits .f32 0x00000000#32 + ∑ k : Fin 2048, x (ix2 p (lo k)) * w (ix2 (lo k) q))
        + ∑ k : Fin 2048, x (ix2 p (hi k)) * w (ix2 (hi k) q)) + b (ix1 q)
      = preAt x w b p q := by
  unfold preAt
  rw [Ideal.ofBits_zero_f32, zero_add, sum_halves (fun k => x (ix2 p k) * w (ix2 k q))]

end Cert.Spec

end
-- ==== Proof.PayAt.lean ====
/-
  The body's four stored values read at one entry (p, q) of the [1024, 1024] block, on the extended reals.

    reset       : the zero word
    accumulate  : acc (p, q) + sum over k < 2048 of x_blk (p, k) * w_blk (k, q)
    first out   : acc (p, q) + bias_row (0, q)
    second out  : the sign selection of the first out's value at (p, q)

  The matrix product is a contraction of the left block's second axis with the right block's first into a
  zero accumulator, so at an entry it is the plain sum of products; the bias is a one-row block repeated
  down the rows. Chained over a point with k = 0 and the point with k = 1 that follows it, the first output
  is ((zero + low-half sum) + high-half sum) + bias.
-/
import proofs.«144921_j37752762532729_1_alg».proof.Proof.Gen.KernelIdeal.Skeleton
import proofs.«144921_j37752762532729_1_alg».proof.Proof.LibMatmulPlain
import proofs.«144921_j37752762532729_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-! ## The block product's operand coordinates: (row, position) on the left, (position, column) on the right -/

theorem dot_l0 (j : S1024x1024.Idx) (r : dot_S1024x2048_S2048x1024_S1024x1024_1_0_0_1_n_n.contr.Idx) :
    (dot_S1024x2048_S2048x1024_S1024x1024_1_0_0_1_n_n.lhsIdx j r (0 : Fin 2)).val = (j 0).val := by
  unfold DotDims.lhsIdx
  rw [dif_neg (show ¬(0 : Fin S1024x2048.rank) ∈ dot_S1024x2048_S2048x1024_S1024x1024_1_0_0_1_n_n.lhsBatch by decide),
    dif_pos (show (0 : Fin S1024x2048.rank) ∈ dot_S1024x2048_S2048x1024_S1024x1024_1_0_0_1_n_n.lhsNonContracting by decide)]
  rfl

theorem dot_l1 (j : S1024x1024.Idx) (r : dot_S1024x2048_S2048x1024_S1024x1024_1_0_0_1_n_n.contr.Idx) :
    (dot_S1024x2048_S2048x1024_S1024x1024_1_0_0_1_n_n.lhsIdx j r (1 : Fin 2)).val = (r ⟨0, by decide⟩).val :=
  dot_S1024x2048_S2048x1024_S1024x1024_1_0_0_1_n_n.lhsIdx_val_of_single rfl j r

theorem dot_r0 (j : S1024x1024.Idx) (r : dot_S1024x2048_S2048x1024_S1024x1024_1_0_0_1_n_n.contr.Idx) :
    (dot_S1024x2048_S2048x1024_S1024x1024_1_0_0_1_n_n.rhsIdx j r (0 : Fin 2)).val = (r ⟨0, by decide⟩).val :=
  dot_S1024x2048_S2048x1024_S1024x1024_1_0_0_1_n_n.rhsIdx_val_of_single rfl j r

theorem dot_r1 (j : S1024x1024.Idx) (r : dot_S1024x2048_S2048x1024_S1024x1024_1_0_0_1_n_n.contr.Idx) :
    (dot_S1024x2048_S2048x1024_S1024x1024_1_0_0_1_n_n.rhsIdx j r (1 : Fin 2)).val = (j 1).val := by
  unfold DotDims.rhsIdx
  rw [dif_neg (show ¬(1 : Fin S2048x1024.rank) ∈ dot_S1024x2048_S2048x1024_S1024x1024_1_0_0_1_n_n.rhsBatch by decide),
    dif_pos (show (1 : Fin S2048x1024.rank) ∈ dot_S1024x2048_S2048x1024_S1024x1024_1_0_0_1_n_n.rhsNonContracting by decide)]
  rfl

/-! ## The four payloads at an entry -/

/-- The reset block is the zero word everywhere. -/
theorem pay1_apply (j : S1024x1024.Idx) : k0_pay1 (F := Ideal) j = Ideal.ofBits .f32 0x00000000#32 := by
  unfold k0_pay1
  simp only [shapeCast_self]
  rfl

/-- The accumulate step at (p, q): what was there plus the block product's entry. -/
theorem pay2_apply (v3 : Vec Ideal S1024x1024 .f32) (v4 : Vec Ideal S1024x2048 .bf16) (v6 : Vec Ideal S2048x1024 .bf16)
    (p q : Fin 1024) :
    k0_pay2 (F := Ideal) v3 v4 v6 (ix2 p q) = v3 (ix2 p q) + ∑ k : Fin 2048, v4 (ix2 p k) * v6 (ix2 k q) := by
  unfold k0_pay2
  simp only [shapeCast_self]
  exact congrArg (v3 (ix2 p q) + ·)
    (MatmulPlain.matmul_zero_apply dot_S1024x2048_S2048x1024_S1024x1024_1_0_0_1_n_n none rfl rfl dot_l0 dot_l1 dot_r0 dot_r1 v4 v6 p q)

/-- The first output at (p, q): the accumulator's entry plus the bias row at column q. -/
theorem pay3_apply (v16 : Vec Ideal S1024x1024 .f32) (v17 : Vec Ideal S1x1024 .f32) (p q : Fin 1024) :
    k0_pay3 (F := Ideal) v16 v17 (ix2 p q) = v16 (ix2 p q) + v17 (ix2 (0 : Fin 1) q) := by
  unfold k0_pay3
  simp only [shapeCast_self]
  exact congrArg (v16 (ix2 p q) + ·) (broadcastTo_1b_ab_apply v17 broadcasts_S1x1024_S1024x1024 p q)

/-- The second output at (p, q): the sign selection of the first output's entry. -/
theorem pay4_apply (v16 : Vec Ideal S1024x1024 .f32) (v17 : Vec Ideal S1x1024 .f32) (j : S1024x1024.Idx) :
    k0_pay4 (F := Ideal) v16 v17 j = Cert.Spec.signAt (k0_pay3 (F := Ideal) v16 v17 j) := rfl

/-- The first output over a point with k = 0 (blocks xa, wa) and the next point (blocks xb, wb, bias row bb),
    at (p, q): ((zero + sum over the first blocks) + sum over the second blocks) + bias. -/
theorem z_apply (xa xb : Vec Ideal S1024x2048 .bf16) (wa wb : Vec Ideal S2048x1024 .bf16) (bb : Vec Ideal S1x1024 .f32)
    (p q : Fin 1024) :
    k0_pay3 (F := Ideal) (k0_pay2 (k0_pay2 (k0_pay1 (F := Ideal)) xa wa) xb wb) bb (ix2 p q)
      = ((Ideal.ofBits .f32 0x00000000#32 + ∑ k : Fin 2048, xa (ix2 p k) * wa (ix2 k q))
          + ∑ k : Fin 2048, xb (ix2 p k) * wb (ix2 k q)) + bb (ix2 (0 : Fin 1) q) := by
  rw [pay3_apply, pay2_apply, pay2_apply, pay1_apply]

end Cert.KernelIdeal.PayAt

end
-- ==== Proof.Blocks.lean ====
/-
  The input blocks of every grid point, read at an entry, as entries of the three argument arrays.

  The grid is 8 x 4 x 2: point t is (row block t / 8, column block (t / 2) % 4, contraction half t % 2). At
  point t the x window holds rows 1024 (t / 8) ... and columns 2048 (t % 2) ...; the w window rows
  2048 (t % 2) ... and columns 1024 ((t / 2) % 4) ...; the bias window row 0 and columns 1024 ((t / 2) % 4) ....
  Before the region the arguments x and w are converted to a narrower float format, which on the extended
  reals is the identity, and the bias is viewed as a one-row matrix.
-/
import proofs.«144921_j37752762532729_1_alg».proof.Proof.Gen.KernelIdeal.Frame
import Idealize.ShloMosaic.Lib.Pipeline.Value
import Idealize.ShloMosaic.Lib.StableHlo.Run
import Idealize.ShloMosaic.Lib.ValueLayout
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-! ## The arrays the region finds -/

/-- The x window's array is the argument x: the format conversion before the region is the identity. -/
theorem V_v0 (c : Dev nD) : (V m c main_v0 : S8192x4096.Idx → EReal) = m ((c : Thread nD τ).loc main_arg0) := by
  dsimp only [Gen.V, Gen.hostOps0]
  after_results
  rfl

/-- The w window's array is the argument w, likewise. -/
theorem V_v1 (c : Dev nD) : (V m c main_v1 : S4096x4096.Idx → EReal) = m ((c : Thread nD τ).loc main_arg1) := by
  dsimp only [Gen.V, Gen.hostOps0]
  after_results
  rfl

/-- The bias window's array is the argument b viewed as one row of 4096. -/
theorem V_v2 (c : Dev nD) : (V m c main_v2 : S1x4096.Idx → EReal)
    = shapeCast S1x4096 (m ((c : Thread nD τ).loc main_arg2)) shapeCasts_S4096_S1x4096 := by
  dsimp only [Gen.V, Gen.hostOps0]
  after_results
  rfl

/-! ## The index maps, decided over the 64 grid points -/

theorem idx_facts : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = 0 ∧ win0_2.index t (1 : Fin 2) = t.val / 2 % 4
    ∧ win0_3.index t (0 : Fin 2) = t.val / 8 ∧ win0_3.index t (1 : Fin 2) = t.val / 2 % 4
    ∧ win0_4.index t (0 : Fin 2) = t.val / 8 ∧ win0_4.index t (1 : Fin 2) = t.val / 2 % 4 :=
  (by decide +kernel : ∀ t : Fin grid0.N, _)

/-! ## Each input block at an entry -/

/-- The x block of point t at (p, k) is x at row 1024 (t / 8) + p, column 2048 (t % 2) + k. -/
theorem iblk0_apply (c : Dev nD) (t : Fin cfg0.N) (p : Fin 1024) (k : Fin 2048) (i : S8192x4096.Idx)
    (h0 : (i 0).val = 1024 * (t.val / 8) + p.val) (h1 : (i 1).val = 2048 * (t.val % 2) + k.val) :
    (iblk m c 0 t : Vec Ideal S1024x2048 .bf16) (ix2 p k) = m ((c : Thread nD τ).loc main_arg0) i := by
  obtain ⟨e0, e1, -⟩ := idx_facts t
  unfold iblk
  rw [View.read_apply]
  show V m c main_v0 (((cfg0.win 0).blk t).view.emb (ix2 p k)) = _
  refine (congrFun (V_v0 m c) _).trans (congrArg _ ?_)
  funext a
  apply Fin.ext
  match a with
  | ⟨0, _⟩ => show win0_0.index t (0 : Fin 2) * 1024 + 1 * p.val = (i 0).val; omega
  | ⟨1, _⟩ => show win0_0.index t (1 : Fin 2) * 2048 + 1 * k.val = (i 1).val; omega

/-- The w block of point t at (k, q) is w at row 2048 (t % 2) + k, column 1024 ((t / 2) % 4) + q. -/
theorem iblk1_apply (c : Dev nD) (t : Fin cfg0.N) (k : Fin 2048) (q : Fin 1024) (i : S4096x4096.Idx)
    (h0 : (i 0).val = 2048 * (t.val % 2) + k.val) (h1 : (i 1).val = 1024 * (t.val / 2 % 4) + q.val) :
    (iblk m c 1 t : Vec Ideal S2048x1024 .bf16) (ix2 k q) = m ((c : Thread nD τ).loc main_arg1) i := by
  obtain ⟨-, -, e0, e1, -⟩ := idx_facts t
  unfold iblk
  rw [View.read_apply]
  show V m c main_v1 (((cfg0.win 1).blk t).view.emb (ix2 k q)) = _
  refine (congrFun (V_v1 m c) _).trans (congrArg _ ?_)
  funext a
  apply Fin.ext
  match a with
  | ⟨0, _⟩ => show win0_1.index t (0 : Fin 2) * 2048 + 1 * k.val = (i 0).val; omega
  | ⟨1, _⟩ => show win0_1.index t (1 : Fin 2) * 1024 + 1 * q.val = (i 1).val; omega

/-- The bias block of point t at (0, q) is b at 1024 ((t / 2) % 4) + q. -/
theorem iblk2_apply (c : Dev nD) (t : Fin cfg0.N) (u : Fin 1) (q : Fin 1024) (i : S4096.Idx)
    (h : (i 0).val = 1024 * (t.val / 2 % 4) + q.val) :
    (iblk m c 2 t : Vec Ideal S1x1024 .f32) (ix2 u q) = m ((c : Thread nD τ).loc main_arg2) i := by
  obtain ⟨-, -, -, -, e0, e1, -⟩ := idx_facts t
  have hu : u.val = 0 := by omega
  unfold iblk
  rw [View.read_apply]
  show V m c main_v2 (((cfg0.win 2).blk t).view.emb (ix2 u q)) = _
  refine (congrFun (V_v2 m c) _).trans ?_
  refine shapeCast_apply _ _ _ i ?_
  rw [Shape.rowMajor_val_two, Shape.rowMajor_val_one]
  show (i 0).val = (win0_2.index t (0 : Fin 2) * 1 + 1 * u.val) * 4096 + (win0_2.index t (1 : Fin 2) * 1024 + 1 * q.val)
  omega

end Cert.KernelIdeal.Blocks

end
-- ==== Proof.KernelValue.lean ====
/-
  The tiled program's two result arrays, after its run, are the specification's two arrays of its arguments.

  Points come in pairs (t - 1, t) with t odd: the same row block and column block, contraction half 0 then
  half 1. The even point leaves (zero + low-half product) in the accumulator; the odd point adds the
  high-half product, then writes (accumulator + bias) to the first result's block and its sign selection to
  the second's, and only odd points write their blocks back. At entry (p, q) of the block of point t that is
    ((0 + sum_{k<2048} x (r, k) w (k, s)) + sum_{k<2048} x (r, 2048 + k) w (2048 + k, s)) + b s
  with r = 1024 (t / 8) + p and s = 1024 ((t / 2) % 4) + q, which is the pre-activation at (r, s): the two
  halves make the whole contraction. Every (r, s) lies in the block of the odd point
  8 (r / 1024) + 2 (s / 1024) + 1, so the written-back blocks cover both arrays.
-/
import proofs.«144921_j37752762532729_1_alg».proof.Proof.Gen.KernelIdeal.Value
import proofs.«144921_j37752762532729_1_alg».proof.Proof.Pieces
import proofs.«144921_j37752762532729_1_alg».proof.Proof.PayAt
import proofs.«144921_j37752762532729_1_alg».proof.Proof.Blocks
import proofs.«144921_j37752762532729_1_alg».proof.Proof.Spec

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.SplitSum

variable (m : (ℓ : Loc nD τ sig) → Buf (Elt Ideal) ℓ) (ρ : Dev nD → PrngReg)

/-- The three argument arrays on core c. -/
abbrev argX (c : Dev nD) : Cert.Spec.SX.Idx → EReal := m ((c : Thread nD τ).loc main_arg0)
abbrev argW (c : Dev nD) : Cert.Spec.SW.Idx → EReal := m ((c : Thread nD τ).loc main_arg1)
abbrev argB (c : Dev nD) : Cert.Spec.SB.Idx → EReal := m ((c : Thread nD τ).loc main_arg2)

/-- The point before t (used for odd t: the same output block, contraction half 0). -/
def prev (t : Fin cfg0.N) : Fin cfg0.N := ⟨t.val - 1, Nat.lt_of_le_of_lt (Nat.sub_le _ _) t.isLt⟩

/-- The accumulator after an odd point t: reset, first half at the point before, second half at t. -/
abbrev accOf (c : Dev nD) (t : Fin cfg0.N) : Vec Ideal S1024x1024 .f32 :=
  k0_pay2 (F := Ideal) (k0_pay2 (F := Ideal) (k0_pay1 (F := Ideal)) (iblk m c 0 (prev t)) (iblk m c 1 (prev t)))
    (iblk m c 0 t) (iblk m c 1 t)

/-- What the even point before an odd point t left in the accumulator. -/
theorem scratch_prev (c : Dev nD) (t : Fin cfg0.N) (h1 : t.val % 2 = 1) :
    (outsAt0 m c (t.val - 1) (Nat.lt_of_le_of_lt (Nat.sub_le _ _) t.isLt)).2.2
      = k0_pay2 (F := Ideal) (k0_pay1 (F := Ideal)) (iblk m c 0 (prev t)) (iblk m c 1 (prev t)) := by
  have hp0 : (prev t).val % 2 = 0 := by show (t.val - 1) % 2 = 0; omega
  have hp1 : ¬(prev t).val % 2 = 1 := by show ¬(t.val - 1) % 2 = 1; omega
  show (outsAt0 m c (prev t).val (prev t).isLt).2.2 = _
  rw [outsAt0_A m c (prev t) hp0 hp1]
  dsimp only
  exact Cert.KernelIdeal.Pieces.scratch_A (F := Ideal) c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) scM0_0 (Memref.isWhole_whole _)
    ((hcond0_0 (prev t)).mpr hp0) (fun h => hp1 ((hcond0_1 (prev t)).mp h))
    (iblk m c 0 (prev t)) (iblk m c 1 (prev t)) (iblk m c 2 (prev t))

/-- The first output's staging block after an odd point t. -/
theorem out3_at (c : Dev nD) (t : Fin cfg0.N) (h1 : t.val % 2 = 1) :
    (outsAt0 m c t.val t.isLt).1 = k0_pay3 (F := Ideal) (accOf m c t) (iblk m c 2 t) := by
  have h0 : ¬t.val % 2 = 0 := by omega
  rw [outsAt0_B m c t h0 h1]
  dsimp only
  refine (Cert.KernelIdeal.Pieces.out3_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2.2).trans ?_
  rw [scratch_prev m c t h1]

/-- The second output's staging block after an odd point t. -/
theorem out4_at (c : Dev nD) (t : Fin cfg0.N) (h1 : t.val % 2 = 1) :
    (outsAt0 m c t.val t.isLt).2.1 = k0_pay4 (F := Ideal) (accOf m c t) (iblk m c 2 t) := by
  have h0 : ¬t.val % 2 = 0 := by omega
  rw [outsAt0_B m c t h0 h1]
  dsimp only
  refine (Cert.KernelIdeal.Pieces.out4_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2.2).trans ?_
  rw [scratch_prev m c t h1]

/-- THE ENTRY. At an odd point t, entry (p, q) of the first output's block is the pre-activation at the
    array index i whose row is 1024 (t / 8) + p and whose column is 1024 ((t / 2) % 4) + q. -/
theorem z_entry (c : Dev nD) (t : Fin cfg0.N) (h1 : t.val % 2 = 1) (p q : Fin 1024) (i : S8192x4096.Idx)
    (hi0 : (i 0).val = 1024 * (t.val / 8) + p.val) (hi1 : (i 1).val = 1024 * (t.val / 2 % 4) + q.val) :
    k0_pay3 (F := Ideal) (accOf m c t) (iblk m c 2 t) (ix2 p q) = Cert.Spec.pre (argX m c) (argW m c) (argB m c) i := by
  refine (Cert.KernelIdeal.PayAt.z_apply (iblk m c 0 (prev t)) (iblk m c 0 t) (iblk m c 1 (prev t)) (iblk m c 1 t)
    (iblk m c 2 t) p q).trans ?_
  refine Eq.trans ?_ (Cert.Spec.halves_eq_preAt (argX m c) (argW m c) (argB m c) (i 0) (i 1))
  have hpv : (prev t).val = t.val - 1 := rfl
  refine congrArg₂ (· + ·) (congrArg₂ (· + ·) (congrArg (_ + ·) (Finset.sum_congr rfl fun k _ => ?_))
    (Finset.sum_congr rfl fun k _ => ?_)) ?_
  · exact congrArg₂ (· * ·)
      (Cert.KernelIdeal.Blocks.iblk0_apply m c (prev t) p k (ix2 (i 0) (lo k))
        (by show (i 0).val = 1024 * ((prev t).val / 8) + p.val; omega)
        (by show (lo k).val = 2048 * ((prev t).val % 2) + k.val; rw [lo_val]; omega))
      (Cert.KernelIdeal.Blocks.iblk1_apply m c (prev t) k q (ix2 (lo k) (i 1))
        (by show (lo k).val = 2048 * ((prev t).val % 2) + k.val; rw [lo_val]; omega)
        (by show (i 1).val = 1024 * ((prev t).val / 2 % 4) + q.val; omega))
  · exact congrArg₂ (· * ·)
      (Cert.KernelIdeal.Blocks.iblk0_apply m c t p k (ix2 (i 0) (hi k))
        (by show (i 0).val = 1024 * (t.val / 8) + p.val; omega)
        (by show (hi k).val = 2048 * (t.val % 2) + k.val; rw [hi_val]; omega))
      (Cert.KernelIdeal.Blocks.iblk1_apply m c t k q (ix2 (hi k) (i 1))
        (by show (hi k).val = 2048 * (t.val % 2) + k.val; rw [hi_val]; omega)
        (by show (i 1).val = 1024 * (t.val / 2 % 4) + q.val; omega))
  · exact Cert.KernelIdeal.Blocks.iblk2_apply m c t 0 q (ix1 (i 1)) (by show (i 1).val = _; omega)

/-- WHAT AN ODD POINT WRITES BACK to the first result: its block of the pre-activation array. -/
theorem flushed3_eq (c : Dev nD) (t : Fin cfg0.N) (hf : (cfg0.win 3).flush t = true) :
    (dats m 0 c).flushed 3 t
      = ((cfg0.win 3).blk t).view.read (Elt Ideal) (Cert.Spec.pre (argX m c) (argW m c) (argB m c)) := by
  have h1 : t.val % 2 = 1 := (flush0_3 t).mp hf
  obtain ⟨-, -, -, -, -, -, e0, e1, -⟩ := Cert.KernelIdeal.Blocks.idx_facts t
  rw [Cert.KernelIdeal.Value.flushed3, out3_at m c t h1]
  funext j
  rw [View.read_apply]
  show k0_pay3 (F := Ideal) (accOf m c t) (iblk m c 2 t) j = _
  refine (congrArg (k0_pay3 (F := Ideal) (accOf m c t) (iblk m c 2 t)) (eq_ix2 j)).trans ?_
  refine z_entry m c t h1 (j 0) (j 1) _ ?_ ?_
  · show win0_3.index t (0 : Fin 2) * 1024 + 1 * (j 0).val = _; omega
  · show win0_3.index t (1 : Fin 2) * 1024 + 1 * (j 1).val = _; omega

/-- WHAT AN ODD POINT WRITES BACK to the second result: its block of the activation array. -/
theorem flushed4_eq (c : Dev nD) (t : Fin cfg0.N) (hf : (cfg0.win 4).flush t = true) :
    (dats m 0 c).flushed 4 t
      = ((cfg0.win 4).blk t).view.read (Elt Ideal) (Cert.Spec.act (argX m c) (argW m c) (argB m c)) := by
  have h1 : t.val % 2 = 1 := (flush0_4 t).mp hf
  obtain ⟨-, -, -, -, -, -, -, -, e0, e1⟩ := Cert.KernelIdeal.Blocks.idx_facts t
  rw [Cert.KernelIdeal.Value.flushed4, out4_at m c t h1]
  funext j
  rw [View.read_apply]
  show k0_pay4 (F := Ideal) (accOf m c t) (iblk m c 2 t) j = _
  refine (Cert.KernelIdeal.PayAt.pay4_apply (accOf m c t) (iblk m c 2 t) j).trans ?_
  show Cert.Spec.signAt _ = Cert.Spec.signAt (Cert.Spec.pre (argX m c) (argW m c) (argB m c) _)
  refine congrArg Cert.Spec.signAt ?_
  refine (congrArg (k0_pay3 (F := Ideal) (accOf m c t) (iblk m c 2 t)) (eq_ix2 j)).trans ?_
  refine z_entry m c t h1 (j 0) (j 1) _ ?_ ?_
  · show win0_4.index t (0 : Fin 2) * 1024 + 1 * (j 0).val = _; omega
  · show win0_4.index t (1 : Fin 2) * 1024 + 1 * (j 1).val = _; omega

/-! ## The written-back blocks cover both result arrays -/

/-- An index is in point t's block of the first result iff each coordinate is in the block's range. -/
theorem mem_blk3 (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3_0).slice (win0_3.rect t)).set ↔ _
  rw [View.set_slice_whole, Rect.mem_set_unit]
  exact Iff.rfl

/-- The same for the second result. -/
theorem mem_blk4 (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3_1).slice (win0_4.rect t)).set ↔ _
  rw [View.set_slice_whole, Rect.mem_set_unit]
  exact Iff.rfl

/-- The odd point whose blocks hold index (r, s): row block r / 1024, column block s / 1024, half 1. -/
def pointOf (i : S8192x4096.Idx) : Fin cfg0.N :=
  ⟨8 * ((i 0).val / 1024) + 2 * ((i 1).val / 1024) + 1, by
    have h0 : (i 0).val < 8192 := (i 0).isLt
    have h1 : (i 1).val < 4096 := (i 1).isLt
    show _ < cfg0.N
    rw [show cfg0.N = 64 from N_0]
    omega⟩

theorem cover3 (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hv : (pointOf i).val = 8 * ((i 0).val / 1024) + 2 * ((i 1).val / 1024) + 1 := rfl
  refine ⟨pointOf i, (flush0_3 _).mpr (by omega), ?_⟩
  rw [mem_blk3]
  obtain ⟨-, -, -, -, -, -, e0, e1, -⟩ := Cert.KernelIdeal.Blocks.idx_facts (pointOf i)
  intro a
  match a with
  | ⟨0, _⟩ =>
    show win0_3.index (pointOf i) (0 : Fin 2) * 1024 ≤ (i 0).val
      ∧ (i 0).val < win0_3.index (pointOf i) (0 : Fin 2) * 1024 + 1024
    omega
  | ⟨1, _⟩ =>
    show win0_3.index (pointOf i) (1 : Fin 2) * 1024 ≤ (i 1).val
      ∧ (i 1).val < win0_3.index (pointOf i) (1 : Fin 2) * 1024 + 1024
    omega

theorem cover4 (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hv : (pointOf i).val = 8 * ((i 0).val / 1024) + 2 * ((i 1).val / 1024) + 1 := rfl
  refine ⟨pointOf i, (flush0_4 _).mpr (by omega), ?_⟩
  rw [mem_blk4]
  obtain ⟨-, -, -, -, -, -, -, -, e0, e1⟩ := Cert.KernelIdeal.Blocks.idx_facts (pointOf i)
  intro a
  match a with
  | ⟨0, _⟩ =>
    show win0_4.index (pointOf i) (0 : Fin 2) * 1024 ≤ (i 0).val
      ∧ (i 0).val < win0_4.index (pointOf i) (0 : Fin 2) * 1024 + 1024
    omega
  | ⟨1, _⟩ =>
    show win0_4.index (pointOf i) (1 : Fin 2) * 1024 ≤ (i 1).val
      ∧ (i 1).val < win0_4.index (pointOf i) (1 : Fin 2) * 1024 + 1024
    omega

/-! ## The two result arrays after the run -/

/-- The first result array ends holding the pre-activation of the arguments. -/
theorem final3 (c : Dev nD) :
    (dats m 0 c).arrAt 3 cfg0.N = Cert.Spec.pre (argX m c) (argW m c) (argB m c) :=
  (dats m 0 c).arrAt_eq_of_cover 3 (Cert.Spec.pre (argX m c) (argW m c) (argB m c)) (flushed3_eq m c) cover3

/-- The second result array ends holding the activation of the arguments. -/
theorem final4 (c : Dev nD) :
    (dats m 0 c).arrAt 4 cfg0.N = Cert.Spec.act (argX m c) (argW m c) (argB m c) :=
  (dats m 0 c).arrAt_eq_of_cover 4 (Cert.Spec.act (argX m c) (argW m c) (argB m c)) (flushed4_eq m c) cover4

/-- The run: every weakly fair execution ends with the two result arrays at the specification's arrays of the
    arguments and the arguments unchanged. -/
theorem run : θ_run defs (onTc (τ := τ) (main (F := Ideal))) ⟨m, fun _ => 0, ρ⟩ fun r => ∀ c : Dev nD,
      r.2.mem ((c : Thread nD τ).loc main_v3_0) = Cert.Spec.pre (argX m c) (argW m c) (argB m c)
      ∧ r.2.mem ((c : Thread nD τ).loc main_v3_1) = Cert.Spec.act (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelIdeal.KValue

end
-- ==== Proof.RefSpec.lean ====
/-
  The reference's two results are the specification's two arrays.

  Its pre-activation is a whole [8192, 4096] x [4096, 4096] product plus the bias repeated down the rows
  (a [4096] array viewed as one row, then as 8192 rows): at (p, q) the sum over k of x (p, k) * w (k, q),
  plus b q. Its activation selects the word for 1 or for -1 by comparing that entry with the zero word,
  which is the specification's sign selection of it.
-/
import proofs.«144921_j37752762532729_1_alg».proof.Proof.Gen.ReferenceIdeal.Read
import proofs.«144921_j37752762532729_1_alg».proof.Proof.Spec

noncomputable section

open scoped BigOperators

namespace Cert.ReferenceIdeal.RefSpec

open Cert.ReferenceIdeal Cert.ReferenceIdeal.Read Idealize.ShloMosaic Idealize.ShloMosaic.ValueIdx

/-- The product's left operand index at output (p, q) and position k is (p, k). -/
theorem lidx_eq (p : Fin 8192) (q : Fin 4096) (k : Fin 4096) : lidx_main_v0 (ix2 p q) k = ix2 p k :=
  funext fun a => Fin.ext (by match a with | ⟨0, _⟩ => rfl | ⟨1, _⟩ => rfl)

/-- Its right operand index is (k, q). -/
theorem ridx_eq (p : Fin 8192) (q : Fin 4096) (k : Fin 4096) : ridx_main_v0 (ix2 p q) k = ix2 k q :=
  funext fun a => Fin.ext (by match a with | ⟨0, _⟩ => rfl | ⟨1, _⟩ => rfl)

/-- The bias, viewed as one row and then repeated, is read at (p, q) at its own index q. -/
theorem bidx_eq (p : Fin 8192) (q : Fin 4096) : idx_main_v1 (idx_main_v2 (ix2 p q)) = ix1 q :=
  funext fun a => Fin.ext (by match a with | ⟨0, _⟩ => rfl)

/-- The reference's pre-activation is the specification's. -/
theorem v3_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v3 (F := Ideal) x0 x1 x2 = Cert.Spec.pre x0 x1 x2 := by
  funext i
  obtain ⟨p, q, rfl⟩ : ∃ (p : Fin 8192) (q : Fin 4096), i = ix2 p q := ⟨i 0, i 1, eq_ix2 i⟩
  rw [val_main_v3_apply, val_main_v0_apply, val_main_v2_apply, val_main_v1_apply]
  simp only [lidx_eq, ridx_eq, bidx_eq]
  rfl

/-- The reference's activation is the specification's: the sign selection of its own pre-activation entry. -/
theorem v7_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v7 (F := Ideal) x0 x1 x2 = Cert.Spec.act x0 x1 x2 := by
  funext i
  have h : val_main_v7 (F := Ideal) x0 x1 x2 i = Cert.Spec.signAt (val_main_v3 (F := Ideal) x0 x1 x2 i) := rfl
  rw [h, v3_eq]
  rfl

end Cert.ReferenceIdeal.RefSpec

end
-- ==== Proof.lean ====
/-
  A tiled matrix product with bias and a sign activation, against the plain formula.

  Arguments: x of shape [8192, 4096], w of shape [4096, 4096], b of shape [4096]. Both programs return
    act (p, q) = 1 if pre (p, q) >= 0 else -1      and      pre (p, q) = (sum over k of x (p, k) * w (k, q)) + b q.
  The reference computes pre as one whole product plus the bias repeated down the rows. The tiled program
  walks an 8 x 4 x 2 grid of (row block, column block, contraction half): it keeps a [1024, 1024]
  accumulator, zeroed at half 0, adds the half's [1024, 2048] x [2048, 1024] block product at each half, and
  at half 1 adds the bias row and writes the block of pre and the block of act. It first converts x and w to a
  narrower float format, which on the extended reals changes nothing.

  On the extended reals the two are the same function of the arguments: entry (p, q) of the tiled result is
  ((0 + low-half sum) + high-half sum) + b q, and addition there is commutative and associative with 0 the
  zero word's value, so this is the whole sum plus b q whatever the entries are (finite or not). The sign
  selection is the same comparison against the same three words on both sides.

  The three frame conjuncts are the generated frames (the reference's from its generated run); the tiled
  program's text is read unchanged at the extended reals, so the idealization conjunct has nothing to state.
-/
import proofs.«144921_j37752762532729_1_alg».proof.Defs
import proofs.«144921_j37752762532729_1_alg».proof.Proof.Gen.Kernel
import proofs.«144921_j37752762532729_1_alg».proof.Proof.Gen.Kernel.Skeleton
import proofs.«144921_j37752762532729_1_alg».proof.Proof.Gen.Kernel.Launch
import proofs.«144921_j37752762532729_1_alg».proof.Proof.Gen.Kernel.Points
import proofs.«144921_j37752762532729_1_alg».proof.Proof.Gen.Kernel.Frame
import proofs.«144921_j37752762532729_1_alg».proof.Proof.Gen.KernelIdeal
import proofs.«144921_j37752762532729_1_alg».proof.Proof.Gen.KernelIdeal.Skeleton
import proofs.«144921_j37752762532729_1_alg».proof.Proof.Gen.KernelIdeal.Launch
import proofs.«144921_j37752762532729_1_alg».proof.Proof.Gen.KernelIdeal.Points
import proofs.«144921_j37752762532729_1_alg».proof.Proof.Gen.KernelIdeal.Frame
import proofs.«144921_j37752762532729_1_alg».proof.Proof.Gen.ReferenceIdeal
import proofs.«144921_j37752762532729_1_alg».proof.Proof.Gen.Pre_finite_inputs
import proofs.«144921_j37752762532729_1_alg».proof.Proof.Gen.KernelIdeal.Value
import proofs.«144921_j37752762532729_1_alg».proof.Proof.Gen.ReferenceIdeal.Run
import proofs.«144921_j37752762532729_1_alg».proof.Proof.Gen.ReferenceIdeal.Read
import proofs.«144921_j37752762532729_1_alg».proof.Proof.KernelValue
import proofs.«144921_j37752762532729_1_alg».proof.Proof.RefSpec
import Idealize.ShloMosaic.Adequacy
import Idealize.ShloMosaic.Init

noncomputable section

namespace Cert.Proof

open Idealize.ShloMosaic Idealize.SL.Sem

/-- The reference runs and leaves its arguments unchanged: its run with the two results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both programs, from memories that agree on the arguments, end with act and pre of those arguments. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.Spec.act (Cert.KernelIdeal.KValue.argX m c) (Cert.KernelIdeal.KValue.argW m c) (Cert.KernelIdeal.KValue.argB m c),
    fun c => Cert.Spec.pre (Cert.KernelIdeal.KValue.argX m c) (Cert.KernelIdeal.KValue.argW m c) (Cert.KernelIdeal.KValue.argB m c),
    ?_, ?_⟩
  · exact (θ_run Cert.KernelIdeal.defs _ _).mono (fun _ h c => ⟨(h c).2.1, (h c).1, (h c).2.2⟩)
      (Cert.KernelIdeal.KValue.run m ρ)
  · refine (θ_run Cert.ReferenceIdeal.defs _ _).mono
      (fun _ h c => ⟨(h c).1.trans ?_, (h c).2.1.trans ?_, (h c).2.2⟩)
      (Cert.ReferenceIdeal.Value.run (F := Ideal) m' ρ')
    · rw [Cert.ReferenceIdeal.Read.val_main_v7_eq, Cert.ReferenceIdeal.RefSpec.v7_eq, (hagree c).1, (hagree c).2.1,
        (hagree c).2.2]
    · rw [Cert.ReferenceIdeal.Read.val_main_v3_eq, Cert.ReferenceIdeal.RefSpec.v3_eq, (hagree c).1, (hagree c).2.1,
        (hagree c).2.2]

/-- The five conjuncts: the tiled program's two frames are its generated frames at the word level and on the
    extended reals; the reference's frame; nothing to state for the idealization; the two results agree. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri, trivial, algebraic⟩

end Cert.Proof

end
